-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S4096 : Shape := ⟨1, ![4096]⟩
abbrev S4096x1 : Shape := ⟨2, ![4096, 1]⟩
abbrev S1x100 : Shape := ⟨2, ![1, 100]⟩
abbrev S4096x100 : Shape := ⟨2, ![4096, 100]⟩
abbrev S8192x100 : Shape := ⟨2, ![8192, 100]⟩
abbrev S1024x4096 : Shape := ⟨2, ![1024, 4096]⟩
abbrev S1024x100 : Shape := ⟨2, ![1024, 100]⟩

abbrev nBuf : Space → Nat
  | .hbm => 9
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .i32⟩
  | .hbm, ⟨2, _⟩ => ⟨S4096x1, .i32⟩
  | .hbm, ⟨3, _⟩ => ⟨S1x100, .i32⟩
  | .hbm, ⟨4, _⟩ => ⟨S4096x100, .i32⟩
  | .hbm, ⟨5, _⟩ => ⟨S4096x100, .i32⟩
  | .hbm, ⟨6, _⟩ => ⟨S4096x100, .i1⟩
  | .hbm, ⟨7, _⟩ => ⟨S4096x100, .f32⟩
  | .hbm, ⟨8, _⟩ => ⟨S8192x100, .f32⟩
  | .local _ .vmem, ⟨0, _⟩ => ⟨S1024x4096, .f32⟩
  | .local _ .vmem, ⟨1, _⟩ => ⟨S1024x4096, .f32⟩
  | .local _ .vmem, ⟨2, _⟩ => ⟨S4096x100, .f32⟩
  | .local _ .vmem, ⟨3, _⟩ => ⟨S1024x100, .f32⟩
  | .local _ .vmem, ⟨4, _⟩ => ⟨S1024x100, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S4096_S4096x1_0 : S4096.BroadcastsInDim S4096x1 (![0] : Fin 1 → Fin S4096x1.rank)
  bcast_S4096x1_S4096x100_0_1 : S4096x1.BroadcastsInDim S4096x100 (![0, 1] : Fin 2 → Fin S4096x100.rank)
  bcast_S1x100_S4096x100_0_1 : S1x100.BroadcastsInDim S4096x100 (![0, 1] : Fin 2 → Fin S4096x100.rank)
  inb_S1024x4096_S1024x4096_0_0 : ∀ a, (![0, 0] : Fin 2 → Nat) a + S1024x4096.size a ≤ S1024x4096.size a
  h_S1024x4096 : 0 < S1024x4096.numel
  inb_S4096x100_S4096x100_0_0 : ∀ a, (![0, 0] : Fin 2 → Nat) a + S4096x100.size a ≤ S4096x100.size a
  h_S4096x100 : 0 < S4096x100.numel
  shapeCasts_S4096x100_S4096x100 : S4096x100.ShapeCasts S4096x100
  inb_S1024x100_S1024x100_0_0 : ∀ a, (![0, 0] : Fin 2 → Nat) a + S1024x100.size a ≤ S1024x100.size a
  h_S1024x100 : 0 < S1024x100.numel
  dot_S1024x4096_S4096x100_S1024x100_1_0_0_1_n_n_wf : DotDims.WF S1024x4096 S4096x100 S1024x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x100.size a ≤ S4096x100.size a
  hwx0_1 : ∀ i : grid0.Coords, EltTy.bits .f32 = 32 ∨ (Rect.block (s := S4096x100) S4096x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x100.size a ≤ S8192x100.size a
  hwx0_2 : ∀ i : grid0.Coords, EltTy.bits .f32 = 32 ∨ (Rect.block (s := S8192x100) S1024x100.size (cc0_transform_2 i) (hinb0_2 i)).WholeWords (EltTy.packing .f32)

variable [Facts₀]

def dot_S1024x4096_S4096x100_S1024x100_1_0_0_1_n_n : DotDims S1024x4096 S4096x100 S1024x100 where
  lhsContracting := [1]
  rhsContracting := [0]
  lhsNonContracting := [0]
  rhsNonContracting := [1]
  lhsBatch := []
  rhsBatch := []
  wf := dot_S1024x4096_S4096x100_S1024x100_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S4096x8192 : Shape := ⟨2, ![4096, 8192]⟩
abbrev S_ : Shape := ⟨0, ![]⟩
abbrev S100x8192 : Shape := ⟨2, ![100, 8192]⟩
abbrev S4096x1 : Shape := ⟨2, ![4096, 1]⟩
abbrev S8192x100 : Shape := ⟨2, ![8192, 100]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .i32⟩
  | .hbm, ⟨2, _⟩ => ⟨S4096x8192, .f32⟩
  | .hbm, ⟨3, _⟩ => ⟨S_, .f32⟩
  | .hbm, ⟨4, _⟩ => ⟨S100x8192, .f32⟩
  | .hbm, ⟨5, _⟩ => ⟨S4096x1, .i32⟩
  | .hbm, ⟨6, _⟩ => ⟨S100x8192, .f32⟩
  | .hbm, ⟨7, _⟩ => ⟨S8192x100, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S8192x4096_S4096x8192_1_0 : S8192x4096.Transposes [1, 0] S4096x8192
  bcast_S_S100x8192 : S_.BroadcastsInDim S100x8192 (![] : Fin 0 → Fin S100x8192.rank)
  bcast_S4096_S4096x1_0 : S4096.BroadcastsInDim S4096x1 (![0] : Fin 1 → Fin S4096x1.rank)
  transposes_S100x8192_S8192x100_1_0 : S100x8192.Transposes [1, 0] S8192x100
  scatter_S100x8192_S4096x1_S4096x8192_1_0_0_1_wf : ScatterDims.WF S100x8192 S4096x1 S4096x8192 [1] [0] [0] 1

variable [Facts₀]

def scatter_S100x8192_S4096x1_S4096x8192_1_0_0_1 : ScatterDims S100x8192 S4096x1 S4096x8192 where
  updateWindowDims := [1]
  insertedWindowDims := [0]
  scatterDimsToOperandDims := [0]
  indexVectorDim := 1
  wf := scatter_S100x8192_S4096x1_S4096x8192_1_0_0_1_wf

class Facts : Prop extends Facts₀ where

variable [Facts]
-- ==== Proof.Payload.lean ====
/-
  The kernel body's arithmetic at one entry.

  At a grid point the body loads a block `x0` of 1024 rows of the values (all 4096 columns) and the
  whole 4096 × 100 indicator matrix `x1`, multiplies them on the matrix unit into a zero
  accumulator, and stores the 1024 × 100 product. Over the extended reals the matrix product has no
  rounding and no order: entry `(p, q)` is `∑ k, x0 (p, k) · x1 (k, q)`, the zero accumulator adding
  nothing. The contraction runs over one axis, so its index is just the column number `k`.
-/
import proofs.«149811_j73048803770493_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The contraction of the body's product has one axis, of extent 4096: its index is a column number. -/
abbrev colEquiv : dot_S1024x4096_S4096x100_S1024x100_1_0_0_1_n_n.contr.Idx ≃ Fin 4096 :=
  contrEquiv1 dot_S1024x4096_S4096x100_S1024x100_1_0_0_1_n_n 4096 rfl rfl

/-- Entry `(p, q)` of the stored block is the row-by-column sum of products. -/
theorem pay_apply (x0 : FVec Ideal S1024x4096 .f32) (x1 : FVec Ideal S4096x100 .f32) (p : Fin 1024) (q : Fin 100) :
    k0_pay1 (F := Ideal) x0 x1 (ix2 p q) = ∑ k : Fin 4096, x0 (ix2 p k) * x1 (ix2 k q) := by
  unfold k0_pay1
  show FloatOps.matmul dot_S1024x4096_S4096x100_S1024x100_1_0_0_1_n_n (some .fp32) x0
      (shapeCast S4096x100 x1 shapeCasts_S4096x100_S4096x100)
      (constant S1024x100 .f32 0x00000000#32) (ix2 p q) = _
  rw [shapeCast_self]
  refine (Ideal.matmul_constant_zero_apply dot_S1024x4096_S4096x100_S1024x100_1_0_0_1_n_n (some .fp32) x0 x1 (ix2 p q)).trans ?_
  rw [← Equiv.sum_comp colEquiv.symm]
  refine Finset.sum_congr rfl fun k _ => ?_
  have hk : ((colEquiv.symm k) ⟨0, by decide⟩ : ℕ) = k.val :=
    contrEquiv1_symm_val dot_S1024x4096_S4096x100_S1024x100_1_0_0_1_n_n 4096 rfl rfl k
  have hl : dot_S1024x4096_S4096x100_S1024x100_1_0_0_1_n_n.lhsIdx (ix2 p q) (colEquiv.symm k) = ix2 p k := by
    funext a; apply Fin.ext
    match a with
    | ⟨0, _⟩ => rfl
    | ⟨1, _⟩ =>
      exact (dot_S1024x4096_S4096x100_S1024x100_1_0_0_1_n_n.lhsIdx_val_of_single (cl := (1 : Fin 2)) rfl (ix2 p q) (colEquiv.symm k)).trans hk
  have hr : dot_S1024x4096_S4096x100_S1024x100_1_0_0_1_n_n.rhsIdx (ix2 p q) (colEquiv.symm k) = ix2 k q := by
    funext a; apply Fin.ext
    match a with
    | ⟨0, _⟩ =>
      exact (dot_S1024x4096_S4096x100_S1024x100_1_0_0_1_n_n.rhsIdx_val_of_single (cr := (0 : Fin 2)) rfl (ix2 p q) (colEquiv.symm k)).trans hk
    | ⟨1, _⟩ => rfl
  rw [hl, hr]

end Cert.KernelIdeal.Body

end
-- ==== Proof.OneHot.lean ====
/-
  The indicator matrix the kernel multiplies by.

  Before the kernel is launched the host builds, from the 4096 column labels, a 4096 × 100 matrix:
  the labels are spread along the rows, the words `0 … 99` along the columns, the two are compared
  for equality entry by entry, and the one-bit answers are converted to floats. So entry `(k, q)` is
  `1` when column `k` of the values carries the label `q`, and `0` otherwise — over the extended
  reals the conversion of the bit `1` is exactly `1` and of the bit `0` exactly `0`. This is the array
  the kernel's second window stages.
-/
import proofs.«149811_j73048803770493_2_alg».proof.Proof.Gen.KernelIdeal.Frame
import Idealize.ShloMosaic.Lib.ValueIdx
import Idealize.ShloMosaic.Lib.IdealHost
import Idealize.ShloMosaic.Lib.Pipeline.Value
import Idealize.ShloMosaic.Lib.StableHlo.Run

noncomputable section

namespace Cert.KernelIdeal.OneHot

open Cert.KernelIdeal Cert.KernelIdeal.Gen Idealize.ShloMosaic Idealize.ShloMosaic.TcCoe Idealize.SL.Sem
open Idealize.ShloMosaic.StableHlo Idealize.ShloMosaic.ValueIdx

/-- The host's six operations composed: labels along rows, `0 … 99` along columns, compared, converted. -/
def indicator (lab : S4096.Idx → BitVec 32) : S4096x100.Idx → EReal :=
  uitofp (F := Ideal) .f32 (cmpi .eq
    (broadcastInDim S4096x100 ![0, 1] bcast_S4096x1_S4096x100_0_1 (broadcastInDim S4096x1 ![0] bcast_S4096_S4096x1_0 lab))
    (broadcastInDim S4096x100 ![0, 1] bcast_S1x100_S4096x100_0_1 (iotaInDim S1x100 32 1)))

/-- Entry `(k, q)` of the indicator matrix: `1` where column `k`'s label is the word `q`, else `0`. -/
theorem indicator_apply (lab : S4096.Idx → BitVec 32) (k : Fin 4096) (q : Fin 100) :
    indicator lab (ix2 k q) = if lab (ix1 k) = BitVec.ofNat 32 q.val then 1 else 0 := by
  unfold indicator uitofp cmpi
  show FloatOps.uitofp (F := Ideal) .f32 (IntOp.cmpi .eq
    (broadcastInDim S4096x100 ![0, 1] bcast_S4096x1_S4096x100_0_1 (broadcastInDim S4096x1 ![0] bcast_S4096_S4096x1_0 lab) (ix2 k q))
    (broadcastInDim S4096x100 ![0, 1] bcast_S1x100_S4096x100_0_1 (iotaInDim S1x100 32 1) (ix2 k q))) = _
  rw [broadcastInDim_apply ![0, 1] bcast_S4096x1_S4096x100_0_1 _ (ix2 k q) (ix2 k (0 : Fin 1)) (fun a => match a with
        | ⟨0, _⟩ => by show k.val = if (4096 : Nat) = 1 then 0 else k.val; rw [if_neg (by decide)]
        | ⟨1, _⟩ => by show (0 : Nat) = if (1 : Nat) = 1 then 0 else q.val; rw [if_pos rfl]),
    broadcastInDim_apply ![0] bcast_S4096_S4096x1_0 lab (ix2 k (0 : Fin 1)) (ix1 k) (fun a => match a with
        | ⟨0, _⟩ => by show k.val = if (4096 : Nat) = 1 then 0 else k.val; rw [if_neg (by decide)]),
    broadcastInDim_apply ![0, 1] bcast_S1x100_S4096x100_0_1 _ (ix2 k q) (ix2 (0 : Fin 1) q) (fun a => match a with
        | ⟨0, _⟩ => by show (0 : Nat) = if (1 : Nat) = 1 then 0 else k.val; rw [if_pos rfl]
        | ⟨1, _⟩ => by show q.val = if (100 : Nat) = 1 then 0 else q.val; rw [if_neg (by decide)])]
  show (((IntOp.cmpi .eq (lab (ix1 k)) (BitVec.ofNat 32 q.val)).toNat : ℝ) : EReal) = _
  unfold IntOp.cmpi
  by_cases h : lab (ix1 k) = BitVec.ofNat 32 q.val
  · rw [if_pos h, h]; simp
  · rw [if_neg h]; simp [h]

variable (m : (ℓ : Loc nD τ sig) → Buf (Elt Ideal) ℓ)

/-- When the region is entered, the array the second window stages is the indicator matrix of the launched labels. -/
theorem V_indicator (c : Dev nD) :
    (V m c main_v0 : S4096x100.Idx → EReal) = indicator (m ((c : Thread nD τ).loc main_arg1)) := by
  dsimp only [V, hostOps0]
  after_results
  rfl

end Cert.KernelIdeal.OneHot

end
-- ==== Proof.SegSum.lean ====
/-
  The per-class column sum, and the two summation identities that meet it.

  Given an array `v` of 8192 rows and 4096 columns, and a 32-bit label on each column, the result
  has 8192 rows and 100 columns: entry `(b, c)` adds up the entries `v (b, k)` of row `b` over the
  columns `k` whose label is the word `c`. A column whose label is none of the words `0 … 99`
  (a negative label, or one of 100 and above) contributes to no entry.

  Two ways of computing it reduce to this sum:
  * a product with the indicator matrix — entry `(k, c)` is `1` when column `k` carries label `c`
    and `0` otherwise — since `a · 1 = a` and `a · 0 = 0` for every extended real `a`, the infinite
    ones included (`sum_mul_indicator`);
  * a sum over the pairs `(k, q)` that satisfy "column `k` carries the label, and `q` is the
    wanted row", which has exactly one `q` for each such column (`sum_landing`).
-/
import Idealize.ShloMosaic.Lib.ValueIdx

noncomputable section

open scoped BigOperators

namespace Cert.SegSum

open Idealize.ShloMosaic Idealize.ShloMosaic.ValueIdx

/-- Entry `(b, c)`: the sum of row `b` of `v` over the columns labelled with the word `c`. -/
def segSum (v : (⟨2, ![8192, 4096]⟩ : Shape).Idx → EReal) (lab : (⟨1, ![4096]⟩ : Shape).Idx → BitVec 32) :
    (⟨2, ![8192, 100]⟩ : Shape).Idx → EReal :=
  fun i => ∑ k : Fin 4096, if lab (ix1 k) = BitVec.ofNat 32 (i 1).val then v (ix2 (i 0) k) else 0

/-- A sum of products with a 0/1 indicator keeps the terms where the indicator is 1. No finiteness is
    needed: on the extended reals `a * 0 = 0` and `a * 1 = a` for every `a`. -/
theorem sum_mul_indicator {n : Nat} (P : Fin n → Prop) [DecidablePred P] (a e : Fin n → EReal)
    (he : ∀ k, e k = if P k then 1 else 0) :
    ∑ k, a k * e k = ∑ k, if P k then a k else 0 := by
  refine Finset.sum_congr rfl fun k _ => ?_
  rw [he k]
  by_cases h : P k
  · rw [if_pos h, if_pos h, mul_one]
  · rw [if_neg h, if_neg h, mul_zero]

/-- A sum over the index pairs `(k, q)` with `P k` and `q = b` is the sum over the `k` with `P k` of the
    term at `(k, b)`: the second coordinate is pinned. -/
theorem sum_landing {n0 n1 : Nat} (P : Fin n0 → Prop) [DecidablePred P] (b : Fin n1)
    (u : (⟨2, ![n0, n1]⟩ : Shape).Idx → EReal) :
    ∑ j ∈ Finset.univ.filter (fun j : (⟨2, ![n0, n1]⟩ : Shape).Idx => P ⟨(j 0).val, idx2_lt0 j⟩ ∧ (j 1).val = b.val), u j
      = ∑ k : Fin n0, if P k then u (ix2 k b) else 0 := by
  rw [Finset.sum_filter, sum_idx2]
  refine Finset.sum_congr rfl fun k _ => ?_
  show ∑ q : Fin n1, (if P k ∧ q.val = b.val then u (ix2 k q) else 0) = _
  by_cases h : P k
  · simp only [h, true_and, Fin.val_inj]
    exact (Finset.sum_ite_eq' Finset.univ b fun q => u (ix2 k q)).trans (if_pos (Finset.mem_univ b))
  · simp only [h, false_and, if_false]
    exact Finset.sum_const_zero

end Cert.SegSum

end
-- ==== Proof.ArrayValue.lean ====
/-
  The kernel's result array, from its blocks.

  The grid has 8 points. Point `t` stages rows `1024·t … 1024·t + 1023` of the values (all 4096
  columns) and the whole indicator matrix, and writes back rows `1024·t … 1024·t + 1023` of the
  result (all 100 columns): the product of the staged rows with the indicator matrix. A row of a
  matrix product depends only on the same row of the left factor, so what point `t` writes is block
  `t` of ONE whole-array function: the product of the whole values array with the indicator matrix
  (`flushed_eq`). The 8 row blocks cover the 8192 rows (row `r` is in block `r / 1024`), so the result
  array ends holding that product (`final_prod`).

  The indicator matrix is `1` at `(k, c)` where column `k` carries label `c` and `0` elsewhere, so the
  product's entry `(b, c)` is the sum of row `b` over the columns labelled `c` (`prod_eq_segSum`).
-/
import proofs.«149811_j73048803770493_2_alg».proof.Proof.Gen.KernelIdeal.Value
import proofs.«149811_j73048803770493_2_alg».proof.Proof.Payload
import proofs.«149811_j73048803770493_2_alg».proof.Proof.OneHot
import proofs.«149811_j73048803770493_2_alg».proof.Proof.SegSum

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The product of a whole 8192 × 4096 array with a 4096 × 100 matrix, entry by entry. -/
def prodArray (v : S8192x4096.Idx → EReal) (oh : S4096x100.Idx → EReal) : S8192x100.Idx → EReal :=
  fun i => ∑ k : Fin 4096, v (ix2 (i 0) k) * oh (ix2 k (i 1))

theorem hz : (![0, 0] : Fin 2 → Nat) = fun _ => 0 := funext fun a => by fin_cases a <;> rfl

/-- The three index maps over the 8 grid points: the values' and the result's row block is the point's number,
    every other block index is `0`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of one point's product: if the staged row of the left block is row `i 0` of the whole array, and the
    staged matrix is the whole matrix, then entry `y` of the block's product is entry `i` of the whole product. -/
theorem point_eq (x0 : FVec Ideal S1024x4096 .f32) (x1 : FVec Ideal S4096x100 .f32)
    (v : S8192x4096.Idx → EReal) (oh : S4096x100.Idx → EReal) (y : S1024x100.Idx) (i : S8192x100.Idx)
    (h0 : ∀ k : Fin 4096, x0 (ix2 (y 0) k) = v (ix2 (i 0) k))
    (h1 : ∀ k : Fin 4096, x1 (ix2 k (y 1)) = oh (ix2 k (i 1))) :
    k0_pay1 (F := Ideal) x0 x1 y = prodArray v oh i := by
  refine (congrArg (k0_pay1 (F := Ideal) x0 x1) (eq_ix2 y)).trans ?_
  refine (Body.pay_apply x0 x1 (y 0) (y 1)).trans ?_
  unfold prodArray
  exact Finset.sum_congr rfl fun k _ => by rw [h0 k, h1 k]

/-- WHAT POINT `t` WRITES BACK is block `t` of the whole product, of the arrays as the region finds them. -/
theorem flushed_eq (c : Dev nD) (t : Fin cfg0.N) :
    (dats m 0 c).flushed 2 t
      = ((cfg0.win 2).blk t).view.read (Elt Ideal) (prodArray (V m c main_arg0) (V m c main_v0)) := by
  rw [Value.flushed2]
  unfold out0_2
  rw [View.canon_unit_zero hz]
  simp only [View.ld_unit_zero (S := S1024x4096) hz, View.ld_unit_zero (S := S4096x100) hz]
  obtain ⟨e00, e01, e10, e11, e20, e21⟩ := idx_facts t
  funext y
  show k0_pay1 (F := Ideal) (iblk m c 0 t) (iblk m c 1 t) y
    = prodArray (V m c main_arg0) (V m c main_v0) (((cfg0.win 2).blk t).view.emb y)
  refine point_eq _ _ _ _ y _ (fun k => ?_) (fun k => ?_)
  · show V m c main_arg0 (((cfg0.win 0).blk t).view.emb (ix2 (y 0) k))
      = V m c main_arg0 (ix2 ((((cfg0.win 2).blk t).view.emb y) 0) k)
    refine congrArg (V m c main_arg0) (funext fun a => Fin.ext ?_)
    match a with
    | ⟨0, _⟩ =>
      show win0_0.index t (0 : Fin 2) * 1024 + 1 * (y 0).val = win0_2.index t (0 : Fin 2) * 1024 + 1 * (y 0).val
      rw [e00, e20]
    | ⟨1, _⟩ =>
      show win0_0.index t (1 : Fin 2) * 4096 + 1 * k.val = k.val
      rw [e01]; omega
  · show V m c main_v0 (((cfg0.win 1).blk t).view.emb (ix2 k (y 1)))
      = V m c main_v0 (ix2 k ((((cfg0.win 2).blk t).view.emb y) 1))
    refine congrArg (V m c main_v0) (funext fun a => Fin.ext ?_)
    match a with
    | ⟨0, _⟩ =>
      show win0_1.index t (0 : Fin 2) * 4096 + 1 * k.val = k.val
      rw [e10]; omega
    | ⟨1, _⟩ =>
      show win0_1.index t (1 : Fin 2) * 100 + 1 * (y 1).val = win0_2.index t (1 : Fin 2) * 100 + 1 * (y 1).val
      rw [e11, e21]

/-- An index of the result array is in point `t`'s block iff each coordinate is in the block's range on its axis. -/
theorem mem_blk (t : Fin cfg0.N) (i : S8192x100.Idx) :
    i ∈ ((cfg0.win 2).blk t).view.set ↔ ∀ a : Fin 2, win0_2.index t a * S1024x100.size a ≤ (i a).val
      ∧ (i a).val < win0_2.index t a * S1024x100.size a + S1024x100.size a := by
  show i ∈ ((View.whole main_v1).slice (win0_2.rect t)).set ↔ _
  rw [View.set_slice_whole, Rect.mem_set_unit]
  exact Iff.rfl

/-- Every entry of the result array is written by some point: row `r` by point `r / 1024`. -/
theorem cover (i : S8192x100.Idx) :
    ∃ t : Fin cfg0.N, (cfg0.win 2).flush t = true ∧ i ∈ ((cfg0.win 2).blk t).view.set := by
  have hi0 : (i 0).val < 8192 := idx2_lt0 i
  have hi1 : (i 1).val < 100 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, e20, e21⟩ := idx_facts t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    rw [e20, ht]; omega
  | ⟨1, _⟩ =>
    show win0_2.index t (1 : Fin 2) * 100 ≤ (i 1).val ∧ (i 1).val < win0_2.index t (1 : Fin 2) * 100 + 100
    rw [e21]; omega

/-- THE RESULT ARRAY after the run is the whole product. -/
theorem final_prod (c : Dev nD) :
    (dats m 0 c).arrAt 2 cfg0.N = prodArray (V m c main_arg0) (V m c main_v0) :=
  (dats m 0 c).arrAt_eq_of_cover 2 (prodArray (V m c main_arg0) (V m c main_v0)) (fun t _ => flushed_eq m c t) cover

/-- The product with the indicator matrix of the labels is the per-class column sum. -/
theorem prod_eq_segSum (c : Dev nD) :
    prodArray (V m c main_arg0) (V m c main_v0)
      = Cert.SegSum.segSum (m ((c : Thread nD τ).loc main_arg0)) (m ((c : Thread nD τ).loc main_arg1)) := by
  rw [V_main_arg0, OneHot.V_indicator]
  funext i
  unfold prodArray Cert.SegSum.segSum
  exact Cert.SegSum.sum_mul_indicator
    (fun k : Fin 4096 => (m ((c : Thread nD τ).loc main_arg1) : S4096.Idx → BitVec 32) (ix1 k) = BitVec.ofNat 32 (i 1).val)
    _ _ (fun k => OneHot.indicator_apply _ k (i 1))

/-- The kernel's run, read: the result array at the per-class column sum of the launched arguments, the arguments unchanged. -/
theorem run : θ_run defs (onTc (τ := τ) (main (F := Ideal))) ⟨m, fun _ => 0, ρ⟩ fun r => ∀ c : Dev nD,
      r.2.mem ((c : Thread nD τ).loc main_v1)
        = Cert.SegSum.segSum (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final_prod m c).trans (prod_eq_segSum m c)), (h c).2⟩)
    (Value.run_blocks m ρ)

end Cert.KernelIdeal.ArrayValue

end
-- ==== Proof.RefValue.lean ====
/-
  The reference computes the per-class column sum.

  The reference transposes the values, so that row `k` of the transposed array is column `k` of the
  values; starts from a 100 × 8192 array of zeros; and adds row `k` of the transposed values into the
  row of the zero array that column `k`'s label names. The label is read as a SIGNED word and is not
  clamped: an update whose target row is below `0` or at `100` and above is dropped. Last it
  transposes back.

  So the update at `(k, q)` — entry `q` of column `k` — lands on `(c, b)` exactly when the label of
  column `k` is the word `c` and `q = b` (`landing_iff`). Entry `(b, c)` of the result is therefore
  `0` plus the sum of `values (b, k)` over the columns `k` labelled `c`.
-/
import proofs.«149811_j73048803770493_2_alg».proof.Proof.Gen.ReferenceIdeal.Read
import proofs.«149811_j73048803770493_2_alg».proof.Proof.SegSum
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The two axes of the 100 × 8192 array the updates are added into: the label's row, and the entry's position. -/
abbrev rowAx : Fin S100x8192.rank := ⟨0, by decide⟩
abbrev posAx : Fin S100x8192.rank := ⟨1, by decide⟩

/-- A word below 100 read signed is the number itself. -/
theorem toInt_small : ∀ c : Fin 100, (BitVec.ofNat 32 c.val).toInt = (c.val : Int) := by decide +kernel

/-- On the row axis an update starts at its column's label, read signed. -/
theorem start_row (x1 : S4096.Idx → BitVec 32) (j : S4096x8192.Idx) :
    scatter_S100x8192_S4096x1_S4096x8192_1_0_0_1.start j (val_main_v2 (F := Ideal) x1) rowAx
      = (x1 (ix1 ⟨(j 0).val, idx2_lt0 j⟩)).toInt := by
  unfold ScatterDims.start
  rw [dif_pos (by decide), val_main_v2_apply]
  refine congrArg (fun z => (x1 z).toInt) (funext fun a => Fin.ext ?_)
  match a with
  | ⟨0, _⟩ => rfl

/-- On the position axis the label gives no start. -/
theorem start_pos (idx : IVec S4096x1 32) (j : S4096x8192.Idx) :
    scatter_S100x8192_S4096x1_S4096x8192_1_0_0_1.start j idx posAx = 0 := by
  unfold ScatterDims.start
  rw [dif_neg (by decide)]

/-- The row axis is not a window axis of the updates: nothing is added to the start there. -/
theorem window_row (j : S4096x8192.Idx) :
    scatter_S100x8192_S4096x1_S4096x8192_1_0_0_1.window j rowAx = 0 := by
  unfold ScatterDims.window
  rw [dif_neg (by decide)]

/-- On the position axis the window coordinate is the update's own position. -/
theorem window_pos (j : S4096x8192.Idx) :
    scatter_S100x8192_S4096x1_S4096x8192_1_0_0_1.window j posAx = (j 1).val := by
  unfold ScatterDims.window
  rw [dif_pos (by decide)]
  rfl

/-- WHERE AN UPDATE LANDS: entry `j = (k, q)` of the transposed values is added at `(c, b)` exactly when column
    `k`'s label is the word `c` and `q = b`; a label outside `0 … 99` lands nowhere. -/
theorem landing_iff (x1 : S4096.Idx → BitVec 32) (j : S4096x8192.Idx) (b : Fin 8192) (c : Fin 100) :
    scatter_S100x8192_S4096x1_S4096x8192_1_0_0_1.resultIdx? j (val_main_v2 (F := Ideal) x1) = some (ix2 c b)
      ↔ (x1 (ix1 ⟨(j 0).val, idx2_lt0 j⟩) = BitVec.ofNat 32 c.val ∧ (j 1).val = b.val) := by
  have hs0 := start_row x1 j
  have hs1 := start_pos (val_main_v2 (F := Ideal) x1) j
  have hw0 := window_row j
  have hw1 := window_pos j
  have hj1 : (j 1).val < 8192 := idx2_lt1 j
  have hc : c.val < 100 := c.isLt
  have hb : b.val < 8192 := b.isLt
  unfold ScatterDims.resultIdx?
  split
  · rename_i h
    rw [Option.some.injEq]
    have h0 := h rowAx
    rw [hs0, hw0] at h0
    constructor
    · intro e
      have e0 : (scatter_S100x8192_S4096x1_S4096x8192_1_0_0_1.start j (val_main_v2 (F := Ideal) x1) rowAx
          + (scatter_S100x8192_S4096x1_S4096x8192_1_0_0_1.window j rowAx : Int)).toNat = c.val :=
        congrArg Fin.val (congrFun e rowAx)
      have e1 : (scatter_S100x8192_S4096x1_S4096x8192_1_0_0_1.start j (val_main_v2 (F := Ideal) x1) posAx
          + (scatter_S100x8192_S4096x1_S4096x8192_1_0_0_1.window j posAx : Int)).toNat = b.val :=
        congrArg Fin.val (congrFun e posAx)
      rw [hs0, hw0] at e0
      rw [hs1, hw1] at e1
      refine ⟨BitVec.eq_of_toInt_eq ?_, by omega⟩
      rw [toInt_small c]
      omega
    · rintro ⟨hx, hq⟩
      funext a
      apply Fin.ext
      match a with
      | ⟨0, _⟩ =>
        show (scatter_S100x8192_S4096x1_S4096x8192_1_0_0_1.start j (val_main_v2 (F := Ideal) x1) rowAx
          + (scatter_S100x8192_S4096x1_S4096x8192_1_0_0_1.window j rowAx : Int)).toNat = c.val
        rw [hs0, hw0, hx, toInt_small c]; omega
      | ⟨1, _⟩ =>
        show (scatter_S100x8192_S4096x1_S4096x8192_1_0_0_1.start j (val_main_v2 (F := Ideal) x1) posAx
          + (scatter_S100x8192_S4096x1_S4096x8192_1_0_0_1.window j posAx : Int)).toNat = b.val
        rw [hs1, hw1]; omega
  · rename_i h
    constructor
    · intro e; exact absurd e (by simp)
    · rintro ⟨hx, hq⟩
      refine absurd (fun a => ?_) h
      match a with
      | ⟨0, _⟩ =>
        show (0 : Int) ≤ scatter_S100x8192_S4096x1_S4096x8192_1_0_0_1.start j (val_main_v2 (F := Ideal) x1) rowAx
            + (scatter_S100x8192_S4096x1_S4096x8192_1_0_0_1.window j rowAx : Int)
          ∧ scatter_S100x8192_S4096x1_S4096x8192_1_0_0_1.start j (val_main_v2 (F := Ideal) x1) rowAx
            + (scatter_S100x8192_S4096x1_S4096x8192_1_0_0_1.window j rowAx : Int) < ((100 : Nat) : Int)
        rw [hs0, hw0, hx, toInt_small c]; omega
      | ⟨1, _⟩ =>
        show (0 : Int) ≤ scatter_S100x8192_S4096x1_S4096x8192_1_0_0_1.start j (val_main_v2 (F := Ideal) x1) posAx
            + (scatter_S100x8192_S4096x1_S4096x8192_1_0_0_1.window j posAx : Int)
          ∧ scatter_S100x8192_S4096x1_S4096x8192_1_0_0_1.start j (val_main_v2 (F := Ideal) x1) posAx
            + (scatter_S100x8192_S4096x1_S4096x8192_1_0_0_1.window j posAx : Int) < ((8192 : Nat) : Int)
        rw [hs1, hw1]; omega

/-- THE REFERENCE'S RESULT, as a function of the two arguments, is the per-class column sum. -/
theorem ref_eq (x0 : S8192x4096.Idx → EReal) (x1 : S4096.Idx → BitVec 32) :
    val_main_v4 (F := Ideal) x0 x1 = Cert.SegSum.segSum x0 x1 := by
  funext i
  obtain ⟨b, c, rfl⟩ : ∃ (b : Fin 8192) (c : Fin 100), i = ix2 b c := ⟨i 0, i 1, eq_ix2 i⟩
  rw [val_main_v4_apply]
  have hi : idx_main_v4 (ix2 b c) = ix2 c b := by
    funext a; match a with | ⟨0, _⟩ => rfl | ⟨1, _⟩ => rfl
  rw [hi]
  unfold val_main_v3
  show Ideal.hostScatterAdd scatter_S100x8192_S4096x1_S4096x8192_1_0_0_1 (val_main_v1 (F := Ideal))
    (val_main_v2 (F := Ideal) x1) (val_main_v0 (F := Ideal) x0) (ix2 c b) = _
  unfold Ideal.hostScatterAdd
  rw [val_main_v1_apply, val_main_cst_apply]
  show Ideal.ofBits .f32 0x00000000#32 + _ = _
  rw [Ideal.ofBits_zero_f32, zero_add]
  refine (Finset.sum_congr (Finset.filter_congr fun j _ => landing_iff x1 j b c) fun _ _ => rfl).trans ?_
  refine (Cert.SegSum.sum_landing (fun k : Fin 4096 => x1 (ix1 k) = BitVec.ofNat 32 c.val) b
    (val_main_v0 (F := Ideal) x0)).trans ?_
  unfold Cert.SegSum.segSum
  refine Finset.sum_congr rfl fun k _ => ?_
  rw [val_main_v0_apply]
  have hk : idx_main_v0 (ix2 k b) = ix2 b k := by
    funext a; match a with | ⟨0, _⟩ => rfl | ⟨1, _⟩ => rfl
  rw [hk]

end Cert.ReferenceIdeal.RefValue

end
-- ==== Proof.lean ====
/-
  The kernel computes, for an 8192 × 4096 array of values and a 32-bit label on each of the 4096
  columns, the 8192 × 100 array whose entry `(b, c)` is the sum of row `b` over the columns labelled
  `c`. It does so as a matrix product: the host first builds the 4096 × 100 indicator matrix of the
  labels (`1` at `(k, c)` where column `k` carries label `c`, else `0`), and the kernel multiplies
  blocks of 1024 rows of the values by it. The reference computes the same array by scattering: it
  adds each column of the values into the result column its label names, dropping a column whose
  label is outside `0 … 99`.

  Over the extended reals the two agree entry by entry, for all inputs — finite or not, labels in
  range or not: `a · 1 = a` and `a · 0 = 0` turn the product with the indicator matrix into the sum
  over the columns carrying the label (Proof/SegSum.lean), the indicator of an out-of-range label is
  a row of zeros (Proof/OneHot.lean), and the scatter lands a column exactly where its signed label
  says (Proof/RefValue.lean). Proof/Payload.lean reads the body's matrix product at an entry, and
  Proof/ArrayValue.lean assembles the result array from the 8 row blocks the grid points write.

  The frames are the generated ones; the reference's frame is its generated run with the result
  dropped. The idealization rewrote nothing, so it is trivially sanctioned.
-/
import proofs.«149811_j73048803770493_2_alg».proof.Defs
import proofs.«149811_j73048803770493_2_alg».proof.Proof.Gen.Kernel
import proofs.«149811_j73048803770493_2_alg».proof.Proof.Gen.Kernel.Skeleton
import proofs.«149811_j73048803770493_2_alg».proof.Proof.Gen.Kernel.Launch
import proofs.«149811_j73048803770493_2_alg».proof.Proof.Gen.Kernel.Points
import proofs.«149811_j73048803770493_2_alg».proof.Proof.Gen.Kernel.Frame
import proofs.«149811_j73048803770493_2_alg».proof.Proof.Gen.KernelIdeal
import proofs.«149811_j73048803770493_2_alg».proof.Proof.Gen.KernelIdeal.Skeleton
import proofs.«149811_j73048803770493_2_alg».proof.Proof.Gen.KernelIdeal.Launch
import proofs.«149811_j73048803770493_2_alg».proof.Proof.Gen.KernelIdeal.Points
import proofs.«149811_j73048803770493_2_alg».proof.Proof.Gen.KernelIdeal.Frame
import proofs.«149811_j73048803770493_2_alg».proof.Proof.Gen.KernelIdeal.Value
import proofs.«149811_j73048803770493_2_alg».proof.Proof.Gen.ReferenceIdeal
import proofs.«149811_j73048803770493_2_alg».proof.Proof.Gen.ReferenceIdeal.Run
import proofs.«149811_j73048803770493_2_alg».proof.Proof.Gen.ReferenceIdeal.Read
import proofs.«149811_j73048803770493_2_alg».proof.Proof.Gen.Pre_finite_inputs
import proofs.«149811_j73048803770493_2_alg».proof.Proof.ArrayValue
import proofs.«149811_j73048803770493_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the per-class column sum of the arguments, which agree. -/
theorem algebraic : Cert.algebraic_KernelIdeal_ReferenceIdeal := by
  intro m ρ m' ρ' _ hagree
  refine ⟨fun c => Cert.SegSum.segSum (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
